-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S1x2x4096x64 : Shape := ⟨4, ![1, 2, 4096, 64]⟩
abbrev S1x1x4096x64 : Shape := ⟨4, ![1, 1, 4096, 64]⟩
abbrev S4096x64 : Shape := ⟨2, ![4096, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .local _ .vmem, ⟨0, _⟩ => ⟨S1x2x4096x64, .f32⟩
  | .local _ .vmem, ⟨1, _⟩ => ⟨S1x2x4096x64, .f32⟩
  | .local _ .vmem, ⟨2, _⟩ => ⟨S1x2x4096x64, .f32⟩
  | .local _ .vmem, ⟨3, _⟩ => ⟨S1x2x4096x64, .f32⟩
  | .local _ .vmem, ⟨4, _⟩ => ⟨S1x2x4096x64, .f32⟩
  | .local _ .vmem, ⟨5, _⟩ => ⟨S1x2x4096x64, .f32⟩
  | .local _ .vmem, ⟨6, _⟩ => ⟨S1x2x4096x64, .f32⟩
  | .local _ .vmem, ⟨7, _⟩ => ⟨S1x2x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2x4096x64_S1x1x4096x64_0_0_0_0 : ∀ a, (![0, 0, 0, 0] : Fin 4 → Nat) a + S1x1x4096x64.size a ≤ S1x2x4096x64.size a
  h_S1x1x4096x64 : 0 < S1x1x4096x64.numel
  shapeCasts_S1x1x4096x64_S4096x64 : S1x1x4096x64.ShapeCasts S4096x64
  shapeCasts_S4096x64_S1x1x4096x64 : S4096x64.ShapeCasts S1x1x4096x64
  inb_S1x2x4096x64_S1x1x4096x64_0_1_0_0 : ∀ a, (![0, 1, 0, 0] : Fin 4 → Nat) a + S1x1x4096x64.size a ≤ S1x2x4096x64.size a
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096x64.size a ≤ S4x16x4096x64.size a
  hwx0_0 : ∀ i : grid0.Coords, EltTy.bits .f32 = 32 ∨ (Rect.block (s := S4x16x4096x64) S1x2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x64.size a ≤ S4x16x4096x64.size a
  hwx0_1 : ∀ i : grid0.Coords, EltTy.bits .f32 = 32 ∨ (Rect.block (s := S4x16x4096x64) S1x2x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x64.size a ≤ S4x16x4096x64.size a
  hwx0_2 : ∀ i : grid0.Coords, EltTy.bits .f32 = 32 ∨ (Rect.block (s := S4x16x4096x64) S1x2x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x4096x64.size a ≤ S4x16x4096x64.size a
  hwx0_3 : ∀ i : grid0.Coords, EltTy.bits .f32 = 32 ∨ (Rect.block (s := S4x16x4096x64) S1x2x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x16x64x64 : Shape := ⟨4, ![4, 16, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64, .f32⟩
  | .hbm, ⟨4, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.Attention.lean ====
/-
  Linear attention (attention without the softmax) on a stack of heads, as ONE function of the three argument arrays.

  A stack has `B × H` heads; a head is three `4096 × 64` matrices `q`, `k`, `v` (4096 positions, 64 features). The head's
  STATE is the `64 × 64` matrix `kᵀ v`: entry `(d, e)` is the sum over the positions `s` of `k[s, d] · v[s, e]`. The head's
  OUTPUT at position `s` and feature `e` is row `s` of `q` against column `e` of the state: the sum over `d` of
  `q[s, d] · state[d, e]`. Everything is read on the extended reals, where the two sums are exact; nothing here needs the entries
  to be finite, because no law beyond the definition of the two sums is used: kernel and reference compute the SAME nest of
  sums, `q (kᵀ v)`, head by head.

  The one structural fact (`linearAttention_of_heads`): the function acts on each head by itself. So if a smaller stack sits
  inside a larger one head by head — every head `(b, h)` of the small stack is, position by position and feature by feature,
  some head `(b', h')` of the large one — then the attention of the small stack is the attention of the large stack read
  through the same placement. A block of heads cut out of the arrays, and a single head cut out of a block, are such
  placements.
-/
import Idealize.ShloMosaic.PureOps.Ideal
import Idealize.ShloMosaic.Lib.ValueIdx

noncomputable section

open scoped BigOperators

namespace Cert.LinearAttention

open Idealize.ShloMosaic Idealize.ShloMosaic.ValueIdx

/-- A stack of `B × H` heads of `4096 × 64` extended reals, indexed `(b, h, s, d)`. -/
abbrev Stack (B H : Nat) : Type := (⟨4, ![B, H, 4096, 64]⟩ : Shape).Idx → EReal

/-- The state `kᵀ v` of head `(b, h)` at `(d, e)`: the sum over the 4096 positions of `k[s, d] · v[s, e]`. -/
def state {B H : Nat} (k v : Stack B H) (b : Fin B) (h : Fin H) (d e : Fin 64) : EReal :=
  ∑ s : Fin 4096, k (ix4 b h s d) * v (ix4 b h s e)

/-- The output `q (kᵀ v)` of head `(b, h)` at position `s`, feature `e`: the sum over the 64 features `d` of
    `q[s, d] · state[d, e]`. -/
def head {B H : Nat} (q k v : Stack B H) (b : Fin B) (h : Fin H) (s : Fin 4096) (e : Fin 64) : EReal :=
  ∑ d : Fin 64, q (ix4 b h s d) * state k v b h d e

/-- Linear attention of a whole stack: at `(b, h, s, e)` the output of head `(b, h)` at `(s, e)`. -/
def linearAttention {B H : Nat} (q k v : Stack B H) : Stack B H :=
  fun i => head q k v (i 0) (i 1) (i 2) (i 3)

/-- Linear attention at an index given by its coordinates. -/
theorem linearAttention_ix4 {B H : Nat} (q k v : Stack B H) (b : Fin B) (h : Fin H) (s : Fin 4096) (e : Fin 64) :
    linearAttention q k v (ix4 b h s e) = head q k v b h s e := rfl

/-- HEADS TO HEADS. Let `emb` place the indices of a `B' × H'` stack among those of a `B × H` stack so that every head goes
    onto a head: for each `(b, h)` there is `(b', h')` with `emb (b, h, s, d) = (b', h', s, d)` at every position and feature.
    Then the attention of the three arrays read through `emb` is the attention of the arrays, read through `emb`: a head's
    output depends on that head's rows only. -/
theorem linearAttention_of_heads {B H B' H' : Nat} (Q K V : Stack B H)
    (emb : (⟨4, ![B', H', 4096, 64]⟩ : Shape).Idx → (⟨4, ![B, H, 4096, 64]⟩ : Shape).Idx)
    (hemb : ∀ (b : Fin B') (h : Fin H'), ∃ (b' : Fin B) (h' : Fin H), ∀ (s : Fin 4096) (d : Fin 64),
      emb (ix4 b h s d) = ix4 b' h' s d)
    (y : (⟨4, ![B', H', 4096, 64]⟩ : Shape).Idx) :
    linearAttention (fun z => Q (emb z)) (fun z => K (emb z)) (fun z => V (emb z)) y = linearAttention Q K V (emb y) := by
  obtain ⟨b, h, s, e, rfl⟩ : ∃ (b : Fin B') (h : Fin H') (s : Fin 4096) (e : Fin 64), y = ix4 b h s e :=
    ⟨y 0, y 1, y 2, y 3, eq_ix4 y⟩
  obtain ⟨b', h', hbh⟩ := hemb b h
  rw [hbh s e, linearAttention_ix4, linearAttention_ix4]
  unfold head state
  simp only [hbh]

end Cert.LinearAttention

end
-- ==== Proof.ReferenceValue.lean ====
/-
  The reference is linear attention of its three arguments.

  The reference is two batched products. The first contracts the position axis of `k` and `v` head by head and leaves, for
  head `(b, h)`, the `64 × 64` state `kᵀ v`; the second contracts the feature axis of `q` against the first axis of that
  state. Read at an output index `(b, h, s, e)`, the second product is the sum over `d` of `q[b, h, s, d]` times the first
  product at `(b, h, d, e)`, which is the sum over the positions `s'` of `k[b, h, s', d] · v[b, h, s', e]`: the definition of
  `linearAttention`, once the products' operand indices are written by their coordinates.
-/
import proofs.«149843_j69810398429420_2_alg».proof.Proof.Gen.ReferenceIdeal.Read
import proofs.«149843_j69810398429420_2_alg».proof.Proof.Attention

noncomputable section

open scoped BigOperators

namespace Cert.ReferenceIdeal.RefValue

open Cert.ReferenceIdeal Cert.ReferenceIdeal.Read Cert.LinearAttention
open Idealize.ShloMosaic Idealize.ShloMosaic.ValueIdx

/-- The second product reads `q` at `(b, h, s, d)`: the output index with its feature replaced by the contracted one. -/
theorem query_index (i : S4x16x4096x64.Idx) (d : Fin 64) : lidx_main_v1 i d = ix4 (i 0) (i 1) (i 2) d :=
  funext fun a => Fin.ext (by match a with | ⟨0, _⟩ => rfl | ⟨1, _⟩ => rfl | ⟨2, _⟩ => rfl | ⟨3, _⟩ => rfl)

/-- The first product, at the state entry `(b, h, d, e)` the second product asks for, reads `k` at `(b, h, s', d)` … -/
theorem key_index (i : S4x16x4096x64.Idx) (d : Fin 64) (s : Fin 4096) :
    lidx_main_v0 (ridx_main_v1 i d) s = ix4 (i 0) (i 1) s d :=
  funext fun a => Fin.ext (by match a with | ⟨0, _⟩ => rfl | ⟨1, _⟩ => rfl | ⟨2, _⟩ => rfl | ⟨3, _⟩ => rfl)

/-- … and `v` at `(b, h, s', e)`. -/
theorem value_index (i : S4x16x4096x64.Idx) (d : Fin 64) (s : Fin 4096) :
    ridx_main_v0 (ridx_main_v1 i d) s = ix4 (i 0) (i 1) s (i 3) :=
  funext fun a => Fin.ext (by match a with | ⟨0, _⟩ => rfl | ⟨1, _⟩ => rfl | ⟨2, _⟩ => rfl | ⟨3, _⟩ => rfl)

/-- The reference's result, as a function of its three arguments, is their linear attention. -/
theorem reference_eq (q k v : (⟨S4x16x4096x64, .f32⟩ : BufTy).Contents (Elt Ideal)) :
    val_main_v1 (F := Ideal) q k v = linearAttention q k v := by
  funext i
  rw [val_main_v1_apply]
  unfold linearAttention head state
  refine Finset.sum_congr rfl fun d _ => ?_
  rw [val_main_v0_apply]
  exact congrArg₂ (· * ·) (congrArg q (query_index i d))
    (Finset.sum_congr rfl fun s _ => congrArg₂ (· * ·) (congrArg k (key_index i d s)) (congrArg v (value_index i d s)))

end Cert.ReferenceIdeal.RefValue

end
-- ==== Proof.HeadProduct.lean ====
/-
  One head inside the kernel body: the two matrix products, read at an index.

  For each of the block's two heads the body loads the head's `q`, `k`, `v` as `[1, 1, 4096, 64]` pieces, drops the two unit
  axes, forms the state `kᵀ v` by a product that contracts the POSITION axis of both operands (axis 0 of each) into a zero
  accumulator, then `q` times that state by a product that contracts `q`'s feature axis against the state's first axis, again
  into a zero accumulator, and puts the two unit axes back. On the extended reals a product into a zero accumulator is the
  plain sum of the operands' products over the contracted coordinate; the casts only rename indices: `(0, 0, s, d)` of a
  piece is `(s, d)` of the matrix. So what the body stores for a head is the linear attention of a stack of ONE head.
-/
import proofs.«149843_j69810398429420_2_alg».proof.Proof.Gen.KernelIdeal.Skeleton
import proofs.«149843_j69810398429420_2_alg».proof.Proof.Attention
import Idealize.ShloMosaic.Lib.Pipeline.Value
import Idealize.ShloMosaic.Lib.ValueIdx
import Idealize.ShloMosaic.PureOps.Ideal.Laws

noncomputable section

open scoped BigOperators

namespace Cert.KernelIdeal.HeadValue

open Cert.KernelIdeal Cert.KernelIdeal.Gen Cert.LinearAttention
open Idealize.ShloMosaic Idealize.ShloMosaic.ValueIdx

/-! ## The two products as sums -/

/-- In the state product the left operand's free axis (its axis 1, the feature `d`) reads the result's row … -/
theorem state_lhs_free (j : S64x64.Idx) (p : dot_S4096x64_S4096x64_S64x64_0_0_1_1_n_n.contr.Idx) :
    (dot_S4096x64_S4096x64_S64x64_0_0_1_1_n_n.lhsIdx j p 1).val = (j 0).val := by
  unfold DotDims.lhsIdx
  rw [dif_neg (show ¬(1 : Fin S4096x64.rank) ∈ dot_S4096x64_S4096x64_S64x64_0_0_1_1_n_n.lhsBatch by decide),
    dif_pos (show (1 : Fin S4096x64.rank) ∈ dot_S4096x64_S4096x64_S64x64_0_0_1_1_n_n.lhsNonContracting by decide)]
  rfl
/-- … and the right operand's free axis (the feature `e`) the result's column. -/
theorem state_rhs_free (j : S64x64.Idx) (p : dot_S4096x64_S4096x64_S64x64_0_0_1_1_n_n.contr.Idx) :
    (dot_S4096x64_S4096x64_S64x64_0_0_1_1_n_n.rhsIdx j p 1).val = (j 1).val := by
  unfold DotDims.rhsIdx
  rw [dif_neg (show ¬(1 : Fin S4096x64.rank) ∈ dot_S4096x64_S4096x64_S64x64_0_0_1_1_n_n.rhsBatch by decide),
    dif_pos (show (1 : Fin S4096x64.rank) ∈ dot_S4096x64_S4096x64_S64x64_0_0_1_1_n_n.rhsNonContracting by decide)]
  rfl

/-- The state product `kᵀ v` at `(d, e)`: the sum over the positions `s` of `k[s, d] · v[s, e]`. Both operands are
    contracted along their axis 0; the result's row is `k`'s free axis, its column `v`'s. -/
theorem state_product_apply (k v : FVec Ideal S4096x64 .f32) (d e : Fin 64) :
    matmul dot_S4096x64_S4096x64_S64x64_0_0_1_1_n_n none k v (constant S64x64 .f32 0x00000000#32) (ix2 d e)
      = ∑ s : Fin 4096, k (ix2 s d) * v (ix2 s e) := by
  simp only [matmul]
  rw [Ideal.matmul_constant_zero_apply,
    ← Equiv.sum_comp (contrEquiv1 dot_S4096x64_S4096x64_S64x64_0_0_1_1_n_n 4096 rfl rfl).symm]
  refine Finset.sum_congr rfl fun s _ => ?_
  have hs := contrEquiv1_symm_val dot_S4096x64_S4096x64_S64x64_0_0_1_1_n_n 4096 rfl rfl s
  have el : dot_S4096x64_S4096x64_S64x64_0_0_1_1_n_n.lhsIdx (ix2 d e)
      ((contrEquiv1 dot_S4096x64_S4096x64_S64x64_0_0_1_1_n_n 4096 rfl rfl).symm s) = ix2 s d :=
    funext fun a => Fin.ext (by
      match a with
      | ⟨0, _⟩ => exact (dot_S4096x64_S4096x64_S64x64_0_0_1_1_n_n.lhsIdx_val_of_single rfl _ _).trans hs
      | ⟨1, _⟩ => exact state_lhs_free _ _)
  have er : dot_S4096x64_S4096x64_S64x64_0_0_1_1_n_n.rhsIdx (ix2 d e)
      ((contrEquiv1 dot_S4096x64_S4096x64_S64x64_0_0_1_1_n_n 4096 rfl rfl).symm s) = ix2 s e :=
    funext fun a => Fin.ext (by
      match a with
      | ⟨0, _⟩ => exact (dot_S4096x64_S4096x64_S64x64_0_0_1_1_n_n.rhsIdx_val_of_single rfl _ _).trans hs
      | ⟨1, _⟩ => exact state_rhs_free _ _)
  rw [el, er]

/-- In the output product the left operand's free axis (its axis 0, the position `s`) reads the result's row … -/
theorem output_lhs_free (j : S4096x64.Idx) (p : dot_S4096x64_S64x64_S4096x64_1_0_0_1_n_n.contr.Idx) :
    (dot_S4096x64_S64x64_S4096x64_1_0_0_1_n_n.lhsIdx j p 0).val = (j 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
/-- … and the right operand's free axis (the state's column `e`) the result's column. -/
theorem output_rhs_free (j : S4096x64.Idx) (p : dot_S4096x64_S64x64_S4096x64_1_0_0_1_n_n.contr.Idx) :
    (dot_S4096x64_S64x64_S4096x64_1_0_0_1_n_n.rhsIdx j p 1).val = (j 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The output product `q · state` at `(s, e)`: the sum over the features `d` of `q[s, d] · state[d, e]`. -/
theorem output_product_apply (q : FVec Ideal S4096x64 .f32) (st : FVec Ideal S64x64 .f32) (s : Fin 4096) (e : Fin 64) :
    matmul dot_S4096x64_S64x64_S4096x64_1_0_0_1_n_n (some .fp32) q st (constant S4096x64 .f32 0x00000000#32) (ix2 s e)
      = ∑ d : Fin 64, q (ix2 s d) * st (ix2 d e) := by
  simp only [matmul]
  rw [Ideal.matmul_constant_zero_apply,
    ← Equiv.sum_comp (contrEquiv1 dot_S4096x64_S64x64_S4096x64_1_0_0_1_n_n 64 rfl rfl).symm]
  refine Finset.sum_congr rfl fun d _ => ?_
  have hd := contrEquiv1_symm_val dot_S4096x64_S64x64_S4096x64_1_0_0_1_n_n 64 rfl rfl d
  have el : dot_S4096x64_S64x64_S4096x64_1_0_0_1_n_n.lhsIdx (ix2 s e)
      ((contrEquiv1 dot_S4096x64_S64x64_S4096x64_1_0_0_1_n_n 64 rfl rfl).symm d) = ix2 s d :=
    funext fun a => Fin.ext (by
      match a with
      | ⟨0, _⟩ => exact output_lhs_free _ _
      | ⟨1, _⟩ => exact (dot_S4096x64_S64x64_S4096x64_1_0_0_1_n_n.lhsIdx_val_of_single rfl _ _).trans hd)
  have er : dot_S4096x64_S64x64_S4096x64_1_0_0_1_n_n.rhsIdx (ix2 s e)
      ((contrEquiv1 dot_S4096x64_S64x64_S4096x64_1_0_0_1_n_n 64 rfl rfl).symm d) = ix2 d e :=
    funext fun a => Fin.ext (by
      match a with
      | ⟨0, _⟩ => exact (dot_S4096x64_S64x64_S4096x64_1_0_0_1_n_n.rhsIdx_val_of_single rfl _ _).trans hd
      | ⟨1, _⟩ => exact output_rhs_free _ _)
  rw [el, er]

/-! ## The casts between a `[1, 1, 4096, 64]` piece and its `4096 × 64` matrix -/

/-- Dropping the two unit axes: the matrix at `(s, d)` is the piece at `(b, h, s, d)`, where `b` and `h` can only be `0`:
    both indices sit at row-major position `s · 64 + d`. -/
theorem matrix_of_piece_apply (x : Vec Ideal S1x1x4096x64 .f32) (b h : Fin 1) (s : Fin 4096) (d : Fin 64) :
    shapeCast S4096x64 x shapeCasts_S1x1x4096x64_S4096x64 (ix2 s d) = x (ix4 b h s d) :=
  shapeCast_apply x shapeCasts_S1x1x4096x64_S4096x64 (ix2 s d) (ix4 b h s d) (by
    rw [Shape.rowMajor_val_four, Shape.rowMajor_val_two]
    show ((b.val * 1 + h.val) * 4096 + s.val) * 64 + d.val = s.val * 64 + d.val
    have hb := b.isLt
    have hh := h.isLt
    omega)

/-- Putting them back: the piece at `(b, h, s, e)` is the matrix at `(s, e)`. -/
theorem piece_of_matrix_apply (x : FVec Ideal S4096x64 .f32) (b h : Fin 1) (s : Fin 4096) (e : Fin 64) :
    shapeCast S1x1x4096x64 x shapeCasts_S4096x64_S1x1x4096x64 (ix4 b h s e) = x (ix2 s e) :=
  shapeCast_apply x shapeCasts_S4096x64_S1x1x4096x64 (ix4 b h s e) (ix2 s e) (by
    rw [Shape.rowMajor_val_four, Shape.rowMajor_val_two]
    show s.val * 64 + e.val = ((b.val * 1 + h.val) * 4096 + s.val) * 64 + e.val
    have hb := b.isLt
    have hh := h.isLt
    omega)

/-! ## What the body stores for a head -/

/-- The value stored for the block's first head: the linear attention of the one-head stack of its three loaded pieces.
    Reading the stored piece at `(0, 0, s, e)` goes through the cast to the output product at `(s, e)`, a sum over `d` of
    `q`'s matrix at `(s, d)` — the piece at `(0, 0, s, d)` — times the state product at `(d, e)`, itself the sum over `s'` of
    the pieces of `k` and `v` at `(0, 0, s', d)` and `(0, 0, s', e)`. -/
theorem first_head_eq (q k v : Vec Ideal S1x1x4096x64 .f32) :
    k0_pay2 q k v = linearAttention (B := 1) (H := 1) q k v := by
  funext x
  obtain ⟨b, h, s, e, rfl⟩ : ∃ (b h : Fin 1) (s : Fin 4096) (e : Fin 64), x = ix4 b h s e :=
    ⟨x 0, x 1, x 2, x 3, eq_ix4 x⟩
  obtain rfl : b = 0 := Subsingleton.elim _ _
  obtain rfl : h = 0 := Subsingleton.elim _ _
  rw [linearAttention_ix4]
  unfold k0_pay2 head state
  refine (piece_of_matrix_apply _ 0 0 s e).trans ?_
  refine (output_product_apply _ _ s e).trans ?_
  refine Finset.sum_congr rfl fun d _ => ?_
  exact congrArg₂ (· * ·) (matrix_of_piece_apply q 0 0 s d)
    ((state_product_apply _ _ d e).trans (Finset.sum_congr rfl fun s' _ =>
      congrArg₂ (· * ·) (matrix_of_piece_apply k 0 0 s' d) (matrix_of_piece_apply v 0 0 s' e)))

/-- The second head is computed by the same operations, the final cast written apart from the products. -/
theorem second_head_eq (q k v : Vec Ideal S1x1x4096x64 .f32) :
    k0_pay1 (k0_pay3 q k v) = linearAttention (B := 1) (H := 1) q k v :=
  (show k0_pay1 (k0_pay3 q k v) = k0_pay2 q k v from rfl).trans (first_head_eq q k v)

end Cert.KernelIdeal.HeadValue

end
-- ==== Proof.BlockValue.lean ====
/-
  What the body leaves in the output window's buffer: the linear attention of the block's two heads.

  A grid point's block is a `[1, 2, 4096, 64]` stack: two heads of one batch entry. The body reads head `j` of each input
  block through the rectangle at offset `(0, j, 0, 0)` of sizes `[1, 1, 4096, 64]`, and stores that head's result through the
  same rectangle of the output block. The rectangle places the one-head stack among the block's indices head onto head:
  `(0, 0, s, d) ↦ (0, j, s, d)`. The stored value is the attention of the one-head stack read through the rectangle
  (HeadProduct), hence — attention acting head by head — the attention of the BLOCK, read through the rectangle. Both stores
  are therefore pieces of one function of the block index, and their two rectangles tile the block: the buffer ends holding
  the linear attention of the three input blocks.
-/
import proofs.«149843_j69810398429420_2_alg».proof.Proof.Gen.KernelIdeal.Frame
import proofs.«149843_j69810398429420_2_alg».proof.Proof.HeadProduct

noncomputable section

namespace Cert.KernelIdeal.BlockValue

open Cert.KernelIdeal Cert.KernelIdeal.Gen Cert.KernelIdeal.HeadValue Cert.LinearAttention
open Idealize.ShloMosaic Idealize.ShloMosaic.ValueIdx

/-- The first head's rectangle sends `(b, h, s, d)` of the one-head stack (`b = h = 0`) to `(0, 0, s, d)` of the block. -/
theorem first_head_place (b h : Fin 1) (s : Fin 4096) (d : Fin 64) :
    r0_0.idx (ix4 b h s d) = ix4 (0 : Fin 1) (0 : Fin 2) s d :=
  funext fun a => Fin.ext (by
    have hb := b.isLt
    have hh := h.isLt
    match a with
    | ⟨0, _⟩ => show 0 + 1 * b.val = 0; omega
    | ⟨1, _⟩ => show 0 + 1 * h.val = 0; omega
    | ⟨2, _⟩ => show 0 + 1 * s.val = s.val; omega
    | ⟨3, _⟩ => show 0 + 1 * d.val = d.val; omega)

/-- The second head's rectangle sends it to `(0, 1, s, d)`. -/
theorem second_head_place (b h : Fin 1) (s : Fin 4096) (d : Fin 64) :
    r0_1.idx (ix4 b h s d) = ix4 (0 : Fin 1) (1 : Fin 2) s d :=
  funext fun a => Fin.ext (by
    have hb := b.isLt
    have hh := h.isLt
    match a with
    | ⟨0, _⟩ => show 0 + 1 * b.val = 0; omega
    | ⟨1, _⟩ => show 1 + 1 * h.val = 1; omega
    | ⟨2, _⟩ => show 0 + 1 * s.val = s.val; omega
    | ⟨3, _⟩ => show 0 + 1 * d.val = d.val; omega)

/-- THE BLOCK'S RESULT: after the body, the output window's buffer holds the linear attention of the three input blocks.
    Each of the two stores is the block-level attention read through its rectangle, and the two rectangles cover the block. -/
theorem block_eq (x0 x1 x2 : Vec Ideal S1x2x4096x64 .f32) :
    out0_3 x0 x1 x2 = linearAttention (B := 1) (H := 2) x0 x1 x2 := by
  funext y
  unfold out0_3
  refine View.canon_apply_of_pieces (Val := Elt Ideal) (S := S1x2x4096x64) (e := .f32)
    (linearAttention (B := 1) (H := 2) x0 x1 x2) _ ?_ y (cover0_3 _ _ y)
  intro p hp x
  rcases List.mem_cons.mp hp with rfl | hp
  · exact (congrFun (second_head_eq _ _ _) x).trans
      (linearAttention_of_heads (B := 1) (H := 2) (B' := 1) (H' := 1) x0 x1 x2 r0_1.idx
        (fun b h => ⟨0, 1, second_head_place b h⟩) x)
  · rcases List.mem_singleton.mp hp with rfl
    exact (congrFun (first_head_eq _ _ _) x).trans
      (linearAttention_of_heads (B := 1) (H := 2) (B' := 1) (H' := 1) x0 x1 x2 r0_0.idx
        (fun b h => ⟨0, 0, first_head_place b h⟩) x)

end Cert.KernelIdeal.BlockValue

end
-- ==== Proof.ArrayValue.lean ====
/-
  From blocks to the array: the kernel's result array is the linear attention of its three argument arrays.

  The grid has `4 × 8` points. At point `(i, j)` every window — the three inputs and the output — has block index
  `(i, j, 0, 0)` with block sizes `[1, 2, 4096, 64]`: the block holds heads `2j` and `2j + 1` of batch entry `i`, whole. An
  element `(b, h, s, d)` of a block therefore sits in its array at `(i + b, 2j + h, s, d)`: the placement carries heads to heads,
  and it is the same placement for all four windows. So what point `t` writes back — the attention of the three input
  blocks (BlockValue) — is block `t` of the attention of the three whole arrays. The `32` output blocks cover the array:
  index `(b, h, s, d)` lies in the block of the point with `i = b`, `j = h / 2`. Hence the array ends holding the attention of
  the arguments everywhere.
-/
import proofs.«149843_j69810398429420_2_alg».proof.Proof.Gen.KernelIdeal.Value
import proofs.«149843_j69810398429420_2_alg».proof.Proof.BlockValue

noncomputable section

namespace Cert.KernelIdeal.ArrayValue

open Cert.KernelIdeal Cert.KernelIdeal.Gen Cert.KernelIdeal.BlockValue Cert.LinearAttention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps -/

/-- The printed index maps, decided over the 32 grid points: the three input windows move with the output window, whose block
    index stays in `[0, 3] × [0, 7] × {0} × {0}`. -/
theorem index_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = win0_3.index t (3 : Fin 4)
    ∧ win0_1.index t (0 : Fin 4) = win0_3.index t (0 : Fin 4) ∧ win0_1.index t (1 : Fin 4) = win0_3.index t (1 : Fin 4)
    ∧ win0_1.index t (2 : Fin 4) = win0_3.index t (2 : Fin 4) ∧ win0_1.index t (3 : Fin 4) = win0_3.index t (3 : Fin 4)
    ∧ win0_2.index t (0 : Fin 4) = win0_3.index t (0 : Fin 4) ∧ win0_2.index t (1 : Fin 4) = win0_3.index t (1 : Fin 4)
    ∧ win0_2.index t (2 : Fin 4) = win0_3.index t (2 : Fin 4) ∧ win0_2.index t (3 : Fin 4) = win0_3.index t (3 : Fin 4)
    ∧ win0_3.index t (0 : Fin 4) ≤ 3 ∧ win0_3.index t (1 : Fin 4) ≤ 7
    ∧ win0_3.index t (2 : Fin 4) = 0 ∧ win0_3.index t (3 : Fin 4) = 0 :=
  (by decide +kernel : ∀ t : Fin grid0.N, _)

/-- Every pair (batch entry, pair of heads) is some point's block. -/
theorem index_onto : ∀ (i : Fin 4) (j : Fin 8), ∃ t : Fin cfg0.N, win0_3.index t = ![i.val, j.val, 0, 0] :=
  (by decide +kernel : ∀ (i : Fin 4) (j : Fin 8), ∃ t : Fin grid0.N, win0_3.index t = ![i.val, j.val, 0, 0])

/-! ## A block's place in its array -/

/-- The output window's block at point `t` sits in the array head onto head: `(b, h, s, d) ↦ (i + b, 2j + h, s, d)` for the
    point's block index `(i, j, 0, 0)`. -/
theorem out_block_place (t : Fin cfg0.N) (b : Fin 1) (h : Fin 2) :
    ∃ (b' : Fin 4) (h' : Fin 16), ∀ (s : Fin 4096) (d : Fin 64),
      ((cfg0.win 3).blk t).view.emb (ix4 b h s d) = ix4 b' h' s d := by
  obtain ⟨-, -, -, -, -, -, -, -, -, -, -, -, e0, e1, e2, e3⟩ := index_facts t
  have hb := b.isLt
  have hh := h.isLt
  refine ⟨⟨win0_3.index t (0 : Fin 4) * 1 + 1 * b.val, by omega⟩, ⟨win0_3.index t (1 : Fin 4) * 2 + 1 * h.val, by omega⟩,
    fun s d => funext fun a => Fin.ext ?_⟩
  match a with
  | ⟨0, _⟩ => rfl
  | ⟨1, _⟩ => rfl
  | ⟨2, _⟩ => show win0_3.index t (2 : Fin 4) * 4096 + 1 * s.val = s.val; omega
  | ⟨3, _⟩ => show win0_3.index t (3 : Fin 4) * 64 + 1 * d.val = d.val; omega

/-- An input window's block at a point is read at the same array indices as the output window's. -/
theorem in_block_place0 (t : Fin cfg0.N) (y : S1x2x4096x64.Idx) :
    ((cfg0.win 0).blk t).view.emb y = ((cfg0.win 3).blk t).view.emb y := by
  obtain ⟨e0, e1, e2, e3, -⟩ := index_facts t
  funext a; apply Fin.ext
  match a with
  | ⟨0, _⟩ => show win0_0.index t (0 : Fin 4) * 1 + 1 * (y 0).val = win0_3.index t (0 : Fin 4) * 1 + 1 * (y 0).val; omega
  | ⟨1, _⟩ => show win0_0.index t (1 : Fin 4) * 2 + 1 * (y 1).val = win0_3.index t (1 : Fin 4) * 2 + 1 * (y 1).val; omega
  | ⟨2, _⟩ => show win0_0.index t (2 : Fin 4) * 4096 + 1 * (y 2).val = win0_3.index t (2 : Fin 4) * 4096 + 1 * (y 2).val; omega
  | ⟨3, _⟩ => show win0_0.index t (3 : Fin 4) * 64 + 1 * (y 3).val = win0_3.index t (3 : Fin 4) * 64 + 1 * (y 3).val; omega
theorem in_block_place1 (t : Fin cfg0.N) (y : S1x2x4096x64.Idx) :
    ((cfg0.win 1).blk t).view.emb y = ((cfg0.win 3).blk t).view.emb y := by
  obtain ⟨-, -, -, -, e0, e1, e2, e3, -⟩ := index_facts t
  funext a; apply Fin.ext
  match a with
  | ⟨0, _⟩ => show win0_1.index t (0 : Fin 4) * 1 + 1 * (y 0).val = win0_3.index t (0 : Fin 4) * 1 + 1 * (y 0).val; omega
  | ⟨1, _⟩ => show win0_1.index t (1 : Fin 4) * 2 + 1 * (y 1).val = win0_3.index t (1 : Fin 4) * 2 + 1 * (y 1).val; omega
  | ⟨2, _⟩ => show win0_1.index t (2 : Fin 4) * 4096 + 1 * (y 2).val = win0_3.index t (2 : Fin 4) * 4096 + 1 * (y 2).val; omega
  | ⟨3, _⟩ => show win0_1.index t (3 : Fin 4) * 64 + 1 * (y 3).val = win0_3.index t (3 : Fin 4) * 64 + 1 * (y 3).val; omega
theorem in_block_place2 (t : Fin cfg0.N) (y : S1x2x4096x64.Idx) :
    ((cfg0.win 2).blk t).view.emb y = ((cfg0.win 3).blk t).view.emb y := by
  obtain ⟨-, -, -, -, -, -, -, -, e0, e1, e2, e3, -⟩ := index_facts t
  funext a; apply Fin.ext
  match a with
  | ⟨0, _⟩ => show win0_2.index t (0 : Fin 4) * 1 + 1 * (y 0).val = win0_3.index t (0 : Fin 4) * 1 + 1 * (y 0).val; omega
  | ⟨1, _⟩ => show win0_2.index t (1 : Fin 4) * 2 + 1 * (y 1).val = win0_3.index t (1 : Fin 4) * 2 + 1 * (y 1).val; omega
  | ⟨2, _⟩ => show win0_2.index t (2 : Fin 4) * 4096 + 1 * (y 2).val = win0_3.index t (2 : Fin 4) * 4096 + 1 * (y 2).val; omega
  | ⟨3, _⟩ => show win0_2.index t (3 : Fin 4) * 64 + 1 * (y 3).val = win0_3.index t (3 : Fin 4) * 64 + 1 * (y 3).val; omega

/-- The three input blocks at point `t` are the three argument arrays read through the output block's placement. -/
theorem query_block (c : Dev nD) (t : Fin cfg0.N) :
    iblk m c 0 t = fun y : S1x2x4096x64.Idx => V m c main_arg0 (((cfg0.win 3).blk t).view.emb y) :=
  funext fun y => show V m c main_arg0 (((cfg0.win 0).blk t).view.emb y) = _ from
    congrArg (V m c main_arg0) (in_block_place0 t y)
theorem key_block (c : Dev nD) (t : Fin cfg0.N) :
    iblk m c 1 t = fun y : S1x2x4096x64.Idx => V m c main_arg1 (((cfg0.win 3).blk t).view.emb y) :=
  funext fun y => show V m c main_arg1 (((cfg0.win 1).blk t).view.emb y) = _ from
    congrArg (V m c main_arg1) (in_block_place1 t y)
theorem value_block (c : Dev nD) (t : Fin cfg0.N) :
    iblk m c 2 t = fun y : S1x2x4096x64.Idx => V m c main_arg2 (((cfg0.win 3).blk t).view.emb y) :=
  funext fun y => show V m c main_arg2 (((cfg0.win 2).blk t).view.emb y) = _ from
    congrArg (V m c main_arg2) (in_block_place2 t y)

/-! ## What a point writes back, and the array after the run -/

/-- WHAT POINT `t` WRITES BACK is block `t` of the linear attention of the three argument arrays. -/
theorem flushed_eq (c : Dev nD) (t : Fin cfg0.N) :
    (dats m 0 c).flushed 3 t = ((cfg0.win 3).blk t).view.read (Elt Ideal)
      (linearAttention (B := 4) (H := 16) (V m c main_arg0) (V m c main_arg1) (V m c main_arg2)) := by
  rw [Value.flushed3]
  funext y
  show out0_3 (iblk m c 0 t) (iblk m c 1 t) (iblk m c 2 t) y
    = linearAttention (B := 4) (H := 16) (V m c main_arg0) (V m c main_arg1) (V m c main_arg2) (((cfg0.win 3).blk t).view.emb y)
  refine (congrFun (block_eq (iblk m c 0 t) (iblk m c 1 t) (iblk m c 2 t)) y).trans ?_
  rw [query_block m c t, key_block m c t, value_block m c t]
  exact linearAttention_of_heads (B := 4) (H := 16) (B' := 1) (H' := 2) (V m c main_arg0) (V m c main_arg1) (V m c main_arg2)
    (fun y => ((cfg0.win 3).blk t).view.emb y) (out_block_place t) y

/-- An index of the array is in point `t`'s block iff each coordinate is in the block's range on its axis. -/
theorem mem_block (t : Fin cfg0.N) (i : S4x16x4096x64.Idx) :
    i ∈ ((cfg0.win 3).blk t).view.set ↔ ∀ a : Fin 4, win0_3.index t a * S1x2x4096x64.size a ≤ (i a).val
      ∧ (i a).val < win0_3.index t a * S1x2x4096x64.size a + S1x2x4096x64.size a := by
  show i ∈ ((View.whole main_v0).slice (win0_3.rect t)).set ↔ _
  rw [View.set_slice_whole, Rect.mem_set_unit]
  exact Iff.rfl

/-- THE COVER: index `(b, h, s, d)` lies in the block of the point with block index `(b, h / 2, 0, 0)`. -/
theorem cover (i : S4x16x4096x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ := index_onto ⟨(i 0).val, h0⟩ ⟨(i 1).val / 2, by omega⟩
  have q0 : win0_3.index t (0 : Fin 4) = (i 0).val := congrFun ht 0
  have q1 : win0_3.index t (1 : Fin 4) = (i 1).val / 2 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2 ≤ (i 1).val ∧ (i 1).val < win0_3.index t (1 : Fin 4) * 2 + 2; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- THE ARRAY after the run is the linear attention of the argument arrays as launched. -/
theorem final (c : Dev nD) :
    (dats m 0 c).arrAt 3 cfg0.N = linearAttention (B := 4) (H := 16) (m ((c : Thread nD τ).loc main_arg0))
      (m ((c : Thread nD τ).loc main_arg1)) (m ((c : Thread nD τ).loc main_arg2)) :=
  (dats m 0 c).arrAt_eq_of_cover 3
    (linearAttention (B := 4) (H := 16) (V m c main_arg0) (V m c main_arg1) (V m c main_arg2))
    (fun t _ => flushed_eq m c t) cover

/-! ## The run, read -/

/-- Every weakly fair execution of the kernel's program terminates with the result array at the linear attention of the
    argument arrays, and the arguments unchanged. -/
theorem run : θ_run defs (onTc (τ := τ) (main (F := Ideal))) ⟨m, fun _ => 0, ρ⟩ fun r => ∀ c : Dev nD,
      r.2.mem ((c : Thread nD τ).loc main_v0) = linearAttention (B := 4) (H := 16) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  Linear attention without the softmax, `out = q (kᵀ v)` head by head, on `f32[4, 16, 4096, 64]` arguments: a kernel whose grid
  point handles two heads of one batch entry, against two batched products of the whole arrays.

  Read on the extended reals both programs compute, at `(b, h, s, e)`, the same nest of two exact sums
      ∑ d, q[b, h, s, d] · (∑ s', k[b, h, s', d] · v[b, h, s', e])
  (`LinearAttention.linearAttention`, Proof/Attention.lean): the reference by its two products read at an index
  (Proof/ReferenceValue.lean); the kernel because each head's pair of matrix products into zero accumulators is that nest for
  a stack of one head (Proof/HeadProduct.lean), the body's two stores put the block's two heads side by side
  (Proof/BlockValue.lean), and the 32 blocks, each two whole heads placed head onto head in the arrays, cover the result
  array (Proof/ArrayValue.lean). The one fact that carries a head's value from the piece to the block to the array is that
  linear attention acts on each head by itself. The two sides are the same sums in the same grouping, so no algebraic law of
  the extended reals is needed and the finiteness of the inputs is never used.

  The frames are the generated frame runs (the reference's is its generated run with the result dropped); the idealization
  rewrote no operation, so `preserves` has nothing to state.
-/
import proofs.«149843_j69810398429420_2_alg».proof.Defs
import proofs.«149843_j69810398429420_2_alg».proof.Proof.Gen.Kernel
import proofs.«149843_j69810398429420_2_alg».proof.Proof.Gen.Kernel.Frame
import proofs.«149843_j69810398429420_2_alg».proof.Proof.Gen.KernelIdeal
import proofs.«149843_j69810398429420_2_alg».proof.Proof.Gen.KernelIdeal.Frame
import proofs.«149843_j69810398429420_2_alg».proof.Proof.Gen.KernelIdeal.Value
import proofs.«149843_j69810398429420_2_alg».proof.Proof.Gen.ReferenceIdeal
import proofs.«149843_j69810398429420_2_alg».proof.Proof.Gen.ReferenceIdeal.Run
import proofs.«149843_j69810398429420_2_alg».proof.Proof.Gen.ReferenceIdeal.Read
import proofs.«149843_j69810398429420_2_alg».proof.Proof.Gen.Pre_finite_inputs
import proofs.«149843_j69810398429420_2_alg».proof.Proof.ReferenceValue
import proofs.«149843_j69810398429420_2_alg».proof.Proof.ArrayValue

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories that agree on `q`, `k`, `v`, both idealized programs end with the result at the linear attention of the
    arguments: the kernel's array by the blocks' cover, the reference's two products by their reading at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
